-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1024x1024 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x1024 : Shape := ⟨2, ![1, 1024]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  inb_S2048x1024_S256x1024_0_0 : ∀ a, (![0, 0] : Fin 2 → Nat) a + S256x1024.size a ≤ S2048x1024.size a
  h_S256x1024 : 0 < S256x1024.numel
  broadcasts_S1x1024_S256x1024 : S1x1024.Broadcasts S256x1024
  inb_S2048x1024_S256x1024_256_0 : ∀ a, (![256, 0] : Fin 2 → Nat) a + S256x1024.size a ≤ S2048x1024.size a
  inb_S2048x1024_S256x1024_512_0 : ∀ a, (![512, 0] : Fin 2 → Nat) a + S256x1024.size a ≤ S2048x1024.size a
  inb_S2048x1024_S256x1024_768_0 : ∀ a, (![768, 0] : Fin 2 → Nat) a + S256x1024.size a ≤ S2048x1024.size a
  inb_S2048x1024_S256x1024_1024_0 : ∀ a, (![1024, 0] : Fin 2 → Nat) a + S256x1024.size a ≤ S2048x1024.size a
  inb_S2048x1024_S256x1024_1280_0 : ∀ a, (![1280, 0] : Fin 2 → Nat) a + S256x1024.size a ≤ S2048x1024.size a
  inb_S2048x1024_S256x1024_1536_0 : ∀ a, (![1536, 0] : Fin 2 → Nat) a + S256x1024.size a ≤ S2048x1024.size a
  inb_S2048x1024_S256x1024_1792_0 : ∀ a, (![1792, 0] : Fin 2 → Nat) a + S256x1024.size a ≤ S2048x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .f32 = 32 ∨ (Rect.block (s := S8192x1024) S2048x1024.size (cc0_transform_3 i) (hinb0_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S1024x256 : Shape := ⟨2, ![1024, 256]⟩
abbrev S1x256 : Shape := ⟨2, ![1, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x1024.size a
  hwx0_1 : ∀ i : grid0.Coords, EltTy.bits .f32 = 32 ∨ (Rect.block (s := S1024x1024) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x1024.size a
  hwx0_2 : ∀ i : grid0.Coords, EltTy.bits .f32 = 32 ∨ (Rect.block (s := S1x1024) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x1024.size a
  hwx0_3 : ∀ i : grid0.Coords, EltTy.bits .f32 = 32 ∨ (Rect.block (s := S8192x1024) S256x256.size (cc0_transform_3 i) (hinb0_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Spec.lean ====
/-
  A dense layer followed by the logistic function, over the extended reals.

  For `x : [m, k]`, `w : [k, n]` and a one-row bias `b : [1, n]`, the entry `(p, q)` of the result is
  `logistic (∑ c, x (p, c) · w (c, q) + b (0, q))`: row `p` of `x` against column `q` of `w`, the bias of column `q`
  added, the logistic function `1 / (1 + e⁻ᵗ)` applied.  An entry depends on ONE row of `x` and ONE column of `w` and
  `b`, so any tiling of the rows and of the columns computes the same entries; the sum over `c` is taken whole on both
  sides of this certificate, so no law of the extended reals beyond `0 + s = s` is used, and no finiteness.

  Two forms of one tile meet this entry: the product into a zero accumulator with the bias added (`tile_apply`), and
  the same product first added to a block of zeros (`zero_tile_apply`).
-/
import Idealize.ShloMosaic.PureOps.Ideal.Laws
import Idealize.ShloMosaic.Lib.ValueIdx
import proofs.«147655_g2000609348534853_pallasbulk_567_18_alg».proof.Proof.LibPlainProduct
import proofs.«147655_g2000609348534853_pallasbulk_567_18_alg».proof.Proof.LibRowsProduct

noncomputable section

namespace Cert.DenseLogistic

open Idealize.ShloMosaic Idealize.ShloMosaic.ValueIdx

/-- Entry `(p, q)` of `logistic (x · w + b)`. -/
def entry {m k n : ℕ} (x : (⟨2, ![m, k]⟩ : Shape).Idx → EReal) (w : (⟨2, ![k, n]⟩ : Shape).Idx → EReal)
    (b : (⟨2, ![1, n]⟩ : Shape).Idx → EReal) (p : Fin m) (q : Fin n) : EReal :=
  Ideal.logistic ((∑ c : Fin k, x (ix2 p c) * w (ix2 c q)) + b (ix2 (0 : Fin 1) q))

/-- The whole result `logistic (x · w + b)` as one function of its index. -/
def layer {m k n : ℕ} (x : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => entry x w b (i 0) (i 1)

theorem layer_ix2 {m k n : ℕ} (x : (⟨2, ![m, k]⟩ : Shape).Idx → EReal) (w : (⟨2, ![k, n]⟩ : Shape).Idx → EReal)
    (b : (⟨2, ![1, n]⟩ : Shape).Idx → EReal) (p : Fin m) (q : Fin n) : layer x w b (ix2 p q) = entry x w b p q := rfl

/-- An entry depends only on ONE row of `x`, ONE column of `w` and ONE entry of `b`: two entries whose rows, columns and
    bias entries agree are equal, whatever arrays they are read from. -/
theorem entry_congr {m m' k n n' : ℕ} (x : (⟨2, ![m, k]⟩ : Shape).Idx → EReal) (x' : (⟨2, ![m', k]⟩ : Shape).Idx → EReal)
    (w : (⟨2, ![k, n]⟩ : Shape).Idx → EReal) (w' : (⟨2, ![k, n']⟩ : Shape).Idx → EReal)
    (b : (⟨2, ![1, n]⟩ : Shape).Idx → EReal) (b' : (⟨2, ![1, n']⟩ : Shape).Idx → EReal)
    (p : Fin m) (p' : Fin m') (q : Fin n) (q' : Fin n')
    (hx : ∀ c : Fin k, x (ix2 p c) = x' (ix2 p' c)) (hw : ∀ c : Fin k, w (ix2 c q) = w' (ix2 c q'))
    (hb : b (ix2 (0 : Fin 1) q) = b' (ix2 (0 : Fin 1) q')) : entry x w b p q = entry x' w' b' p' q' := by
  unfold entry
  rw [hb, Finset.sum_congr rfl fun c _ => by rw [hx c, hw c]]

/-- A tile computed as: the product into a zero accumulator, plus the bias row broadcast down the rows, through the
    logistic function — read at `(p, q)`. -/
theorem tile_apply {m k n : ℕ} {φ₁ φ₂ : FTy}
    (wf : DotDims.WF ⟨2, ![m, k]⟩ ⟨2, ![k, n]⟩ ⟨2, ![m, n]⟩ [1] [0] [0] [1] [] [])
    (prec : Option ContractPrecision) (hb : (⟨2, ![1, n]⟩ : Shape).Broadcasts ⟨2, ![m, n]⟩)
    (xs : FVec Ideal ⟨2, ![m, k]⟩ φ₁) (ws : FVec Ideal ⟨2, ![k, n]⟩ φ₂) (bs : FVec Ideal ⟨2, ![1, n]⟩ .f32)
    (p : Fin m) (q : Fin n) :
    logistic (addf (matmul (⟨[1], [0], [0], [1], [], [], wf⟩ : DotDims _ _ _) prec xs ws (constant _ .f32 0x00000000#32))
        (broadcastTo ⟨2, ![m, n]⟩ bs hb)) (ix2 p q)
      = entry xs ws bs p q := by
  show Ideal.logistic (FloatOps.matmul (⟨[1], [0], [0], [1], [], [], wf⟩ : DotDims _ _ _) prec xs ws
      (constant _ .f32 0x00000000#32) (ix2 p q) + broadcastTo ⟨2, ![m, n]⟩ bs hb (ix2 p q)) = _
  rw [Cert.PlainProduct.matmul_nn_apply, Cert.RowsProduct.broadcastTo_1n_an_apply]
  rfl

/-- The same tile when the product is first added to a block of zeros: `0 + s = s` on the extended reals. -/
theorem zero_tile_apply {m k n : ℕ} {φ₁ φ₂ : FTy}
    (wf : DotDims.WF ⟨2, ![m, k]⟩ ⟨2, ![k, n]⟩ ⟨2, ![m, n]⟩ [1] [0] [0] [1] [] [])
    (prec : Option ContractPrecision) (hb : (⟨2, ![1, n]⟩ : Shape).Broadcasts ⟨2, ![m, n]⟩)
    (xs : FVec Ideal ⟨2, ![m, k]⟩ φ₁) (ws : FVec Ideal ⟨2, ![k, n]⟩ φ₂) (bs : FVec Ideal ⟨2, ![1, n]⟩ .f32)
    (p : Fin m) (q : Fin n) :
    logistic (addf (addf (broadcast ⟨2, ![m, n]⟩ (Scalar.ofBits (F := Ideal) .f32 0x00000000#32))
          (matmul (⟨[1], [0], [0], [1], [], [], wf⟩ : DotDims _ _ _) prec xs ws (constant _ .f32 0x00000000#32)))
        (broadcastTo ⟨2, ![m, n]⟩ bs hb)) (ix2 p q)
      = entry xs ws bs p q := by
  show Ideal.logistic ((Ideal.ofBits .f32 0x00000000#32 + FloatOps.matmul (⟨[1], [0], [0], [1], [], [], wf⟩ : DotDims _ _ _) prec xs ws
      (constant _ .f32 0x00000000#32) (ix2 p q)) + broadcastTo ⟨2, ![m, n]⟩ bs hb (ix2 p q)) = _
  rw [Ideal.ofBits_zero_f32, zero_add, Cert.PlainProduct.matmul_nn_apply, Cert.RowsProduct.broadcastTo_1n_an_apply]
  rfl

end Cert.DenseLogistic

end
-- ==== Proof.KernelTiles.lean ====
/-
  One grid point of the kernel: 2048 rows of `x` against the whole weight matrix, 256 rows at a time.

  The body keeps the weights, narrowed to the 16-bit format, in a buffer of its own that outlives the grid point: the
  first point fills it, every later point finds it as the point before left it.  Then it cuts its 2048 rows of `x`
  into eight groups of 256 consecutive rows, and for each group stores `logistic (rows · weights + bias)` at the same
  rows of its output block.  Read back, the eight stores are ONE function of the block index: entry `(p, q)` depends on
  row `p` of the block of `x`, on column `q` of the kept weights and on the bias of column `q`, whichever group row
  `p` falls in.  At the ideal values a change of float format is the identity, so the kept weights are the weights.
-/
import proofs.«147655_g2000609348534853_pallasbulk_567_18_alg».proof.Proof.Gen.KernelIdeal.Frame
import proofs.«147655_g2000609348534853_pallasbulk_567_18_alg».proof.Proof.Spec
import Idealize.ShloMosaic.Lib.Pipeline.Value
import Idealize.ShloMosaic.Lib.Tactic

noncomputable section

namespace Cert.KernelIdeal.Tiles

open Cert.KernelIdeal Cert.KernelIdeal.Gen Idealize.ShloMosaic Idealize.ShloMosaic.TcCoe Idealize.SL.Sem
open Idealize.ShloMosaic.ValueIdx Cert.DenseLogistic

variable {F : FTy → Type} [FloatOps F]

theorem hz : (![0, 0] : Fin 2 → Nat) = fun _ => 0 := funext fun a => by fin_cases a <;> rfl

/-- The weights as the body keeps them: narrowed to the 16-bit format. -/
def narrow (w : Vec F S1024x1024 .f32) : Vec F S1024x1024 .bf16 := truncf .bf16 w bitsLt_bf16_f32

/-- What the body computes for one group of 256 rows `xs`, from the kept weights `wb` and the bias row `b`. -/
def rows (wb : Vec F S1024x1024 .bf16) (b : Vec F S1x1024 .f32) (xs : Vec F S256x1024 .f32) : FVec F S256x1024 .f32 :=
  logistic (addf (matmul dot_S256x1024_S1024x1024_S256x1024_1_0_0_1_n_n none (truncf .bf16 xs bitsLt_bf16_f32) wb
    (constant S256x1024 .f32 0x00000000#32)) (broadcastTo S256x1024 b broadcasts_S1x1024_S256x1024))

/-- The store of the group of rows starting at row `o` of the block `x`: its rectangle and what it stores. -/
def group (wb : Vec F S1024x1024 .bf16) (b : Vec F S1x1024 .f32) (x : Vec F S2048x1024 .f32) (o : ℕ)
    (inb : ∀ a, (![o, 0] : Fin 2 → Nat) a + S256x1024.size a ≤ S2048x1024.size a) : View.Piece (Elt F) S2048x1024 .f32 :=
  ⟨Rect.unit ![o, 0] S256x1024.size inb, rows wb b (View.ld x (Rect.unit ![o, 0] S256x1024.size inb))⟩

/-- The eight stores of one grid point, last first. -/
def groups (wb : Vec F S1024x1024 .bf16) (b : Vec F S1x1024 .f32) (x : Vec F S2048x1024 .f32) :
    List (View.Piece (Elt F) S2048x1024 .f32) :=
  [group wb b x 1792 inb_S2048x1024_S256x1024_1792_0,
   group wb b x 1536 inb_S2048x1024_S256x1024_1536_0,
   group wb b x 1280 inb_S2048x1024_S256x1024_1280_0,
   group wb b x 1024 inb_S2048x1024_S256x1024_1024_0,
   group wb b x 768 inb_S2048x1024_S256x1024_768_0,
   group wb b x 512 inb_S2048x1024_S256x1024_512_0,
   group wb b x 256 inb_S2048x1024_S256x1024_256_0,
   group wb b x 0 inb_S2048x1024_S256x1024_0_0]

/-! ## What one grid point leaves, for any float values -/

section Pieces
variable (c : Dev nD) (i : grid0.Coords) (a1 : Memref sig .tc .vmem S2048x1024 .f32) (h1 : a1.IsWhole)
  (a2 : Memref sig .tc .vmem S1024x1024 .f32) (h2 : a2.IsWhole) (a3 : Memref sig .tc .vmem S1x1024 .f32) (h3 : a3.IsWhole)
  (a4 : Memref sig .tc .vmem S2048x1024 .f32) (h4 : a4.IsWhole) (a5 : Memref sig .tc .vmem S1024x1024 .bf16) (h5 : a5.IsWhole)
  (x0 : Vec F S2048x1024 .f32) (x1 : Vec F S1024x1024 .f32) (x2 : Vec F S1x1024 .f32)

/-- The first grid point leaves the narrowed weights in the kept buffer. -/
theorem kept_first (hc : cond0_0 i) :
    sout0_A_0 c i a1 h1 a2 h2 a3 h3 a4 h4 a5 h5 hc x0 x1 x2 = narrow x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  unfold k0_pay6 narrow
  simp only [View.readAt_eq_ld, h2.read_unread, View.ld_unit_zero (S := S1024x1024) hz, shapeCast_self]

/-- The first grid point leaves in its output block the eight groups computed from the weights it has just narrowed. -/
theorem block_first (hc : cond0_0 i) :
    out0_A_3 c i a1 h1 a2 h2 a3 h3 a4 h4 a5 h5 hc x0 x1 x2 = View.canon (groups (narrow x1) x2 x0) := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readCov_unit_zero (S := S1024x1024) _ hz, View.readAt_eq_ld, h1.read_unread, h2.read_unread, h3.read_unread,
    View.ld_unit_zero (S := S1024x1024) hz, View.ld_unit_zero (S := S1x1024) hz]
  unfold k0_pay6
  simp only [shapeCast_self]
  rfl

/-- A later grid point leaves the eight groups computed from the weights `wb` it found in the kept buffer. -/
theorem block_later (hc : ¬cond0_0 i) (wb : Vec F S1024x1024 .bf16) :
    out0_B_3 c i a1 h1 a2 h2 a3 h3 a4 h4 a5 h5 hc x0 x1 x2 wb = View.canon (groups wb x2 x0) := by
  unfold out0_B_3
  rw [View.read_writes_eq_canon _ _ _ (cover0_B_3 c i a1 h1 a2 h2 a3 h3 a4 h4 a5 h5 hc x0 x1 x2 wb)]
  unfold kernelRun0_B
  dsimp only
  sl_unfold_words
  simp only [View.readAt_eq_ld, h1.read_unread, h3.read_unread, h5.read_unread,
    View.ld_unit_zero (S := S1024x1024) hz, View.ld_unit_zero (S := S1x1024) hz]
  rfl

end Pieces

/-! ## The eight groups are one function of the block index, at the ideal values -/

/-- Row `p` of the group starting at row `o` is row `o + p` of the block. -/
theorem emb_group (o : ℕ) (inb : ∀ a, (![o, 0] : Fin 2 → Nat) a + S256x1024.size a ≤ S2048x1024.size a) (ho : o + 256 ≤ 2048)
    (p : Fin 256) (q : Fin 1024) :
    (Rect.unit (s := S2048x1024) ![o, 0] S256x1024.size inb).emb (ix2 p q) = ix2 (⟨o + p.val, by omega⟩ : Fin 2048) q := by
  funext a; apply Fin.ext
  match a with
  | ⟨0, _⟩ => show o + 1 * p.val = o + p.val; omega
  | ⟨1, _⟩ => show 0 + 1 * q.val = q.val; omega

/-- One group's store agrees, at each of its indices, with the layer computed from the whole block. -/
theorem group_apply (wb : Vec Ideal S1024x1024 .bf16) (b : Vec Ideal S1x1024 .f32) (x : Vec Ideal S2048x1024 .f32) (o : ℕ)
    (inb : ∀ a, (![o, 0] : Fin 2 → Nat) a + S256x1024.size a ≤ S2048x1024.size a) (ho : o + 256 ≤ 2048) (j : S256x1024.Idx) :
    rows wb b (View.ld x (Rect.unit ![o, 0] S256x1024.size inb)) j
      = layer x wb b ((Rect.unit (s := S2048x1024) ![o, 0] S256x1024.size inb).emb j) := by
  obtain ⟨p, q, rfl⟩ : ∃ (p : Fin 256) (q : Fin 1024), j = ix2 p q := ⟨j 0, j 1, eq_ix2 j⟩
  rw [emb_group o inb ho p q, layer_ix2]
  refine (tile_apply dot_S256x1024_S1024x1024_S256x1024_1_0_0_1_n_n_wf none broadcasts_S1x1024_S256x1024
    (truncf .bf16 (View.ld x (Rect.unit ![o, 0] S256x1024.size inb)) bitsLt_bf16_f32) wb b p q).trans ?_
  refine congrArg (fun s => Ideal.logistic (s + b (ix2 (0 : Fin 1) q))) (Finset.sum_congr rfl fun k _ => ?_)
  show x ((Rect.unit (s := S2048x1024) ![o, 0] S256x1024.size inb).emb (ix2 p k)) * wb (ix2 k q) = _
  rw [emb_group o inb ho p k]

/-- Every store of a grid point is a piece of the layer computed from the whole block. -/
theorem groups_agree (wb : Vec Ideal S1024x1024 .bf16) (b : Vec Ideal S1x1024 .f32) (x : Vec Ideal S2048x1024 .f32) :
    ∀ g ∈ groups wb b x, ∀ j : g.1.shape.Idx, g.2 j = layer x wb b (g.1.emb j) := by
  intro g hg
  simp only [groups, List.mem_cons, List.not_mem_nil, or_false] at hg
  rcases hg with rfl | rfl | rfl | rfl | rfl | rfl | rfl | rfl
  · exact fun j => group_apply wb b x 1792 _ (by omega) j
  · exact fun j => group_apply wb b x 1536 _ (by omega) j
  · exact fun j => group_apply wb b x 1280 _ (by omega) j
  · exact fun j => group_apply wb b x 1024 _ (by omega) j
  · exact fun j => group_apply wb b x 768 _ (by omega) j
  · exact fun j => group_apply wb b x 512 _ (by omega) j
  · exact fun j => group_apply wb b x 256 _ (by omega) j
  · exact fun j => group_apply wb b x 0 _ (by omega) j

/-- The eight groups tile the block. -/
theorem groups_cover (wb : Vec Ideal S1024x1024 .bf16) (b : Vec Ideal S1x1024 .f32) (x : Vec Ideal S2048x1024 .f32)
    (y : S2048x1024.Idx) : ∃ g ∈ groups wb b x, y ∈ g.1.set :=
  View.cover_of_tiledL (groups wb b x) S256x1024.size (by sl_kernel_rfl) y

/-- So what a grid point leaves in its output block is the layer computed from its block of `x`, the kept weights and the
    bias, at every index. -/
theorem groups_apply (wb : Vec Ideal S1024x1024 .bf16) (b : Vec Ideal S1x1024 .f32) (x : Vec Ideal S2048x1024 .f32)
    (y : S2048x1024.Idx) : View.canon (groups wb b x) y = layer x wb b y :=
  View.canon_apply_of_pieces (layer x wb b) (groups wb b x) (groups_agree wb b x) y (groups_cover wb b x y)

end Cert.KernelIdeal.Tiles

end
-- ==== Proof.KernelWhole.lean ====
/-
  The kernel's result array: `logistic (x · w + b)`, entry by entry.

  The grid has four points; point `t` works on rows `2048 t … 2048 t + 2047` of `x` and of the result, and on the
  whole of `w` and `b`.  The buffer of narrowed weights is filled at the first point and found unchanged at the other
  three (an induction over the points), so every point computes its 2048 rows from the same weights; what point `t`
  writes back is the block of ONE whole-array function at its rows, and the four blocks tile the array.
-/
import proofs.«147655_g2000609348534853_pallasbulk_567_18_alg».proof.Proof.Gen.KernelIdeal.Value
import proofs.«147655_g2000609348534853_pallasbulk_567_18_alg».proof.Proof.KernelTiles

noncomputable section

namespace Cert.KernelIdeal.Whole

open Cert.KernelIdeal Cert.KernelIdeal.Gen Cert.KernelIdeal.Tiles Idealize.ShloMosaic Idealize.ShloMosaic.TcCoe Idealize.SL.Sem
open Idealize.ShloMosaic.ValueIdx Cert.DenseLogistic
open Idealize.ShloMosaic.Pipeline (Dat)

variable (m : (ℓ : Loc nD τ sig) → Buf (Elt Ideal) ℓ) (ρ : Dev nD → PrngReg)

/-- The three argument arrays as the launch finds them, as functions of their indices. -/
abbrev X (c : Dev nD) : S8192x1024.Idx → EReal := m ((c : Thread nD τ).loc main_arg0)
abbrev W (c : Dev nD) : S1024x1024.Idx → EReal := m ((c : Thread nD τ).loc main_arg1)
abbrev B (c : Dev nD) : S1x1024.Idx → EReal := m ((c : Thread nD τ).loc main_arg2)

/-- The result array: the layer of the three argument arrays. -/
def result (c : Dev nD) : S8192x1024.Idx → EReal := layer (X m c) (W m c) (B m c)

/-- Where each window's block sits at each grid point: `x` and the result move down by one block of rows per point,
    the weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the whole weight array. -/
theorem wts_block (c : Dev nD) (t : Fin cfg0.N) : (iblk m c 1 t : Vec Ideal S1024x1024 .f32) = W m c := by
  obtain ⟨-, -, e0, e1, -, -, -, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 1024 + 1 * (j 0).val = (j 0).val; rw [e0]; omega
  | ⟨1, _⟩ => show win0_1.index t (1 : Fin 2) * 1024 + 1 * (j 1).val = (j 1).val; rw [e1]; omega

/-- The bias's block at any point is the whole bias row. -/
theorem bias_block (c : Dev nD) (t : Fin cfg0.N) : (iblk m c 2 t : Vec Ideal S1x1024 .f32) = B m c := by
  obtain ⟨-, -, -, -, e0, e1, -, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 1024 + 1 * (j 1).val = (j 1).val; rw [e1]; omega

/-- Row `p` of the block of `x` at point `t` is row `2048 t + p` of `x`. -/
theorem rows_block (c : Dev nD) (t : Fin cfg0.N) (p : Fin 2048) (k : Fin 1024) :
    (iblk m c 0 t : Vec Ideal S2048x1024 .f32) (ix2 p k)
      = X m c (ix2 (⟨2048 * t.val + p.val, by have := t.isLt; have hN : cfg0.N = 4 := N_0; omega⟩ : Fin 8192) k) := by
  obtain ⟨e0, e1, -, -, -, -, -, -⟩ := idx_facts t
  show V m c main_arg0 (((cfg0.win 0).blk t).view.emb (ix2 p k)) = V m c main_arg0 _
  refine congrArg _ (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 1024 + 1 * k.val = k.val; rw [e1]; omega

/-- Entry `(p, q)` of the result's block at point `t` is entry `(2048 t + p, q)` of the result. -/
theorem emb_out (t : Fin cfg0.N) (p : Fin 2048) (q : Fin 1024) :
    ((cfg0.win 3).blk t).view.emb (ix2 p q)
      = ix2 (⟨2048 * t.val + p.val, by have := t.isLt; have hN : cfg0.N = 4 := N_0; omega⟩ : Fin 8192) q := by
  obtain ⟨-, -, -, -, -, -, e0, e1⟩ := idx_facts t
  refine funext fun a => Fin.ext ?_
  match a with
  | ⟨0, _⟩ => show win0_3.index t (0 : Fin 2) * 2048 + 1 * p.val = 2048 * t.val + p.val; rw [e0]; omega
  | ⟨1, _⟩ => show win0_3.index t (1 : Fin 2) * 1024 + 1 * q.val = q.val; rw [e1]; omega

/-- THE KEPT WEIGHTS: after every grid point the kernel's own buffer holds the narrowed weight array — the first point
    stores it, each later point leaves what it found. -/
theorem kept_eq (c : Dev nD) : ∀ (n : ℕ) (h : n < cfg0.N), (outsAt0 m c n h).2 = narrow (F := Ideal) (W m c)
  | 0, h => by
    have e := congrArg Prod.snd (outsAt0_A m c ⟨0, h⟩ rfl)
    dsimp only at e
    exact e.trans ((kept_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) (iblk m c 0 ⟨0, h⟩) (iblk m c 1 ⟨0, h⟩) (iblk m c 2 ⟨0, h⟩) _).trans
      (congrArg narrow (wts_block m c ⟨0, h⟩)))
  | n + 1, h => by
    have hN : cfg0.N = 4 := N_0
    have hB : ¬(⟨n + 1, h⟩ : Fin cfg0.N).val % 4 = 0 := by dsimp only; omega
    have e := congrArg Prod.snd (outsAt0_B m c ⟨n + 1, h⟩ hB)
    dsimp only at e
    unfold sout0_B_0 at e
    exact e.trans (kept_eq c _ _)

/-- What grid point `t` leaves in its output block: the eight groups of rows, computed from its block of `x`, the
    narrowed weight array and the bias row. -/
theorem block_eq (c : Dev nD) (t : Fin cfg0.N) :
    (outsAt0 m c t.val t.isLt).1 = View.canon (groups (narrow (F := Ideal) (W m c)) (B m c) (iblk m c 0 t)) := by
  by_cases h0 : t.val % 4 = 0
  · rw [outsAt0_A m c t h0]
    dsimp only
    rw [block_first c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) ((hcond0_0 t).mpr h0), wts_block, bias_block]
  · rw [outsAt0_B m c t h0]
    dsimp only
    rw [block_later c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) (fun h => h0 ((hcond0_0 t).mp h)), kept_eq, bias_block]

/-- WHAT POINT `t` WRITES BACK is its block of the result: entry `(p, q)` of the block is computed from row `p` of the
    block of `x`, which is row `2048 t + p` of `x`; narrowing the weights changes no value. -/
theorem flushed_eq (c : Dev nD) (t : Fin cfg0.N) :
    (dats m 0 c).flushed 3 t = ((cfg0.win 3).blk t).view.read (Elt Ideal) (result m c) := by
  rw [Value.flushed3, block_eq m c t]
  funext j
  show View.canon (groups (narrow (F := Ideal) (W m c)) (B m c) (iblk m c 0 t)) j = result m c (((cfg0.win 3).blk t).view.emb j)
  refine (groups_apply (narrow (F := Ideal) (W m c)) (B m c) (iblk m c 0 t) j).trans ?_
  obtain ⟨p, q, rfl⟩ : ∃ (p : Fin 2048) (q : Fin 1024), j = ix2 p q := ⟨j 0, j 1, eq_ix2 j⟩
  rw [emb_out t p q]
  exact entry_congr (m := 2048) (m' := 8192) (k := 1024) (n := 1024) (n' := 1024) (iblk m c 0 t) (X m c) (narrow (F := Ideal) (W m c)) (W m c)
    (B m c) (B m c) p _ q q (fun k => rows_block m c t p k) (fun _ => rfl) rfl

/-- An index of the result is in point `t`'s block iff each coordinate is in the block's range on its axis. -/
theorem mem_blk (t : Fin cfg0.N) (i : S8192x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v0).slice (win0_3.rect t)).set ↔ _
  rw [View.set_slice_whole, Rect.mem_set_unit]
  exact Iff.rfl

/-- The four blocks tile the result: row `r` is in the block of point `r / 2048`. -/
theorem cover (i : S8192x1024.Idx) :
    ∃ t : Fin cfg0.N, (cfg0.win 3).flush t = true ∧ i ∈ ((cfg0.win 3).blk t).view.set := by
  have hN : cfg0.N = 4 := N_0
  have h0 : (i 0).val < 8192 := (i 0).isLt
  have h1 : (i 1).val < 1024 := (i 1).isLt
  have ht : (i 0).val / 2048 < cfg0.N := by omega
  obtain ⟨-, -, -, -, -, -, e0, e1⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e0]; dsimp only; omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    rw [e1]; omega

/-- So the result array ends holding the layer of the argument arrays. -/
theorem final (c : Dev nD) : (dats m 0 c).arrAt 3 cfg0.N = result m c :=
  (dats m 0 c).arrAt_eq_of_cover 3 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibReadBack.lean ====
/-
  Reading a whole buffer back after several stores.

  When the LAST of a list of stores covered the whole buffer, a load of the whole buffer reads what that store wrote,
  whatever the earlier stores were: an accumulator block that is zeroed, then overwritten with a sum, then read again.
-/
import Idealize.ShloMosaic.Lib.Pipeline.Value

noncomputable section

namespace Cert.ReadBack

open Idealize.ShloMosaic

/-- A load through the whole-shape rectangle, after stores of which the last went through the same rectangle, reads that
    last store's payload. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.ReadBack

end
-- ==== Proof.ReferenceTile.lean ====
/-
  One grid point of the reference: a 256 × 256 tile of the result.

  The reference's grid is (32, 4, 1): 32 blocks of 256 rows, 4 blocks of 256 columns, and a third axis of extent one
  along which it would accumulate partial products.  With one step on that axis every point starts its output tile at
  zero, adds the product of its 256 rows of `x` with its 256 columns of `w` taken over the whole shared axis, then
  adds its 256 entries of the bias and applies the logistic function, each step storing the tile and the next reading it
  back.  What the point leaves is `logistic ((0 + rows · columns) + bias)`.
-/
import proofs.«147655_g2000609348534853_pallasbulk_567_18_alg».proof.Proof.Gen.ReferenceIdeal.Frame
import proofs.«147655_g2000609348534853_pallasbulk_567_18_alg».proof.Proof.Spec
import proofs.«147655_g2000609348534853_pallasbulk_567_18_alg».proof.Proof.LibReadBack
import Idealize.ShloMosaic.Lib.Pipeline.Value
import Idealize.ShloMosaic.Lib.Tactic

noncomputable section

namespace Cert.ReferenceIdeal.Tile

open Cert.ReferenceIdeal Cert.ReferenceIdeal.Gen Idealize.ShloMosaic Idealize.ShloMosaic.TcCoe Idealize.SL.Sem
open Idealize.ShloMosaic.ValueIdx Cert.DenseLogistic

variable {F : FTy → Type} [FloatOps F]

theorem hz : (![0, 0] : Fin 2 → Nat) = fun _ => 0 := funext fun a => by fin_cases a <;> rfl

/-- What one grid point computes from its 256 rows `xs` of `x`, its 256 columns `ws` of `w` and its 256 entries `bs` of
    the bias. -/
def tile (xs : Vec F S256x1024 .f32) (ws : Vec F S1024x256 .f32) (bs : Vec F S1x256 .f32) : FVec F S256x256 .f32 :=
  logistic (addf (addf (broadcast S256x256 (Scalar.ofBits .f32 0x00000000#32))
      (matmul dot_S256x1024_S1024x256_S256x256_1_0_0_1_n_n (some .fp32) xs ws (constant S256x256 .f32 0x00000000#32)))
    (broadcastTo S256x256 bs broadcasts_S1x256_S256x256))

/-- What a grid point leaves in its output tile, for any float values: the three stores cover the whole tile each, so
    the last one's payload stays, computed from what the first two left. -/
theorem tile_eq (c : Dev nD) (i : grid0.Coords) (a3 : Memref sig .tc .vmem S256x1024 .f32) (h3 : a3.IsWhole)
    (a4 : Memref sig .tc .vmem S1024x256 .f32) (h4 : a4.IsWhole) (a5 : Memref sig .tc .vmem S1x256 .f32) (h5 : a5.IsWhole)
    (a6 : Memref sig .tc .vmem S256x256 .f32) (h6 : a6.IsWhole)
    (x0 : Vec F S256x1024 .f32) (x1 : Vec F S1024x256 .f32) (x2 : Vec F S1x256 .f32) (hc0 : cond0_0 i) (hc1 : cond0_1 i) :
    out0_A_3 c i a3 h3 a4 h4 a5 h5 a6 h6 hc0 hc1 x0 x1 x2 = tile x0 x1 x2 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S256x256) hz, Cert.ReadBack.readCov_cons_unit_zero (S := S256x256) _ hz,
    View.readCov_unit_zero (S := S256x256) _ hz]
  unfold k0_pay3 k0_pay2 k0_pay1 tile
  simp only [View.readAt_eq_ld, h3.read_unread, h4.read_unread, h5.read_unread, View.ld_unit_zero (S := S256x1024) hz,
    View.ld_unit_zero (S := S1024x256) hz, View.ld_unit_zero (S := S1x256) hz, shapeCast_self]

/-- At the ideal values the tile's entry `(p, q)` is the layer's entry computed from the point's rows, columns and bias
    entries. -/
theorem tile_apply_ideal (xs : Vec Ideal S256x1024 .f32) (ws : Vec Ideal S1024x256 .f32) (bs : Vec Ideal S1x256 .f32)
    (p q : Fin 256) : tile xs ws bs (ix2 p q) = entry xs ws bs p q :=
  zero_tile_apply dot_S256x1024_S1024x256_S256x256_1_0_0_1_n_n_wf (some .fp32) broadcasts_S1x256_S256x256 xs ws bs p q

end Cert.ReferenceIdeal.Tile

end
-- ==== Proof.ReferenceWhole.lean ====
/-
  The reference's result array: `logistic (x · w + b)`, entry by entry.

  Point `t` of the 128 grid points works on row block `t / 4` and column block `t % 4`: rows `256 (t / 4) …` of `x`,
  columns `256 (t % 4) …` of `w` and of the bias, and the 256 × 256 tile of the result at that row and column block.
  Entry `(p, q)` of the tile is the layer's entry from those rows and columns, which is entry
  `(256 (t / 4) + p, 256 (t % 4) + q)` of the layer of the whole arrays; the 128 tiles tile the result.
-/
import proofs.«147655_g2000609348534853_pallasbulk_567_18_alg».proof.Proof.Gen.ReferenceIdeal.Value
import proofs.«147655_g2000609348534853_pallasbulk_567_18_alg».proof.Proof.ReferenceTile

noncomputable section

namespace Cert.ReferenceIdeal.Whole

open Cert.ReferenceIdeal Cert.ReferenceIdeal.Gen Cert.ReferenceIdeal.Tile Idealize.ShloMosaic Idealize.ShloMosaic.TcCoe Idealize.SL.Sem
open Idealize.ShloMosaic.ValueIdx Cert.DenseLogistic
open Idealize.ShloMosaic.Pipeline (Dat)

variable (m : (ℓ : Loc nD τ sig) → Buf (Elt Ideal) ℓ) (ρ : Dev nD → PrngReg)

/-- The three argument arrays as the launch finds them, as functions of their indices. -/
abbrev X (c : Dev nD) : S8192x1024.Idx → EReal := m ((c : Thread nD τ).loc main_arg0)
abbrev W (c : Dev nD) : S1024x1024.Idx → EReal := m ((c : Thread nD τ).loc main_arg1)
abbrev B (c : Dev nD) : S1x1024.Idx → EReal := m ((c : Thread nD τ).loc main_arg2)

/-- The result array: the layer of the three argument arrays. -/
def result (c : Dev nD) : S8192x1024.Idx → EReal := layer (X m c) (W m c) (B m c)

/-- Where each window's block sits at each grid point: the row block is `t / 4`, the column block `t % 4`. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- Row `p` of the block of `x` at point `t` is row `256 (t / 4) + p` of `x`. -/
theorem rows_block (c : Dev nD) (t : Fin cfg0.N) (p : Fin 256) (k : Fin 1024) :
    (iblk m c 0 t : Vec Ideal S256x1024 .f32) (ix2 p k)
      = X m c (ix2 (⟨256 * (t.val / 4) + p.val, by have := t.isLt; have hN : cfg0.N = 128 := N_0; omega⟩ : Fin 8192) k) := by
  obtain ⟨e0, e1, -, -, -, -, -, -⟩ := idx_facts t
  show V m c main_arg0 (((cfg0.win 0).blk t).view.emb (ix2 p k)) = V m c main_arg0 _
  refine congrArg _ (funext fun a => Fin.ext ?_)
  match a with
  | ⟨0, _⟩ => show win0_0.index t (0 : Fin 2) * 256 + 1 * p.val = 256 * (t.val / 4) + p.val; rw [e0]; omega
  | ⟨1, _⟩ => show win0_0.index t (1 : Fin 2) * 1024 + 1 * k.val = k.val; rw [e1]; omega

/-- Column `q` of the block of `w` at point `t` is column `256 (t % 4) + q` of `w`. -/
theorem cols_block (c : Dev nD) (t : Fin cfg0.N) (k : Fin 1024) (q : Fin 256) :
    (iblk m c 1 t : Vec Ideal S1024x256 .f32) (ix2 k q)
      = W m c (ix2 k (⟨256 * (t.val % 4) + q.val, by omega⟩ : Fin 1024)) := by
  obtain ⟨-, -, e0, e1, -, -, -, -⟩ := idx_facts t
  show V m c main_arg1 (((cfg0.win 1).blk t).view.emb (ix2 k q)) = V m c main_arg1 _
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 256 + 1 * q.val = 256 * (t.val % 4) + q.val; rw [e1]; omega

/-- Entry `q` of the block of the bias at point `t` is entry `256 (t % 4) + q` of the bias. -/
theorem bias_block (c : Dev nD) (t : Fin cfg0.N) (q : Fin 256) :
    (iblk m c 2 t : Vec Ideal S1x256 .f32) (ix2 (0 : Fin 1) q)
      = B m c (ix2 (0 : Fin 1) (⟨256 * (t.val % 4) + q.val, by omega⟩ : Fin 1024)) := by
  obtain ⟨-, -, -, -, e0, e1, -, -⟩ := idx_facts t
  show V m c main_arg2 (((cfg0.win 2).blk t).view.emb (ix2 (0 : Fin 1) q)) = V m c main_arg2 _
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * q.val = 256 * (t.val % 4) + q.val; rw [e1]; omega

/-- Entry `(p, q)` of the result's tile at point `t` is entry `(256 (t / 4) + p, 256 (t % 4) + q)` of the result. -/
theorem emb_out (t : Fin cfg0.N) (p q : Fin 256) :
    ((cfg0.win 3).blk t).view.emb (ix2 p q)
      = ix2 (⟨256 * (t.val / 4) + p.val, by have := t.isLt; have hN : cfg0.N = 128 := N_0; omega⟩ : Fin 8192)
          (⟨256 * (t.val % 4) + q.val, by omega⟩ : Fin 1024) := by
  obtain ⟨-, -, -, -, -, -, e0, e1⟩ := idx_facts t
  refine funext fun a => Fin.ext ?_
  match a with
  | ⟨0, _⟩ => show win0_3.index t (0 : Fin 2) * 256 + 1 * p.val = 256 * (t.val / 4) + p.val; rw [e0]; omega
  | ⟨1, _⟩ => show win0_3.index t (1 : Fin 2) * 256 + 1 * q.val = 256 * (t.val % 4) + q.val; rw [e1]; omega

/-- WHAT POINT `t` WRITES BACK is its tile of the result. -/
theorem flushed_eq (c : Dev nD) (t : Fin cfg0.N) :
    (dats m 0 c).flushed 3 t = ((cfg0.win 3).blk t).view.read (Elt Ideal) (result m c) := by
  rw [Value.flushed3_A, tile_eq c (grid0.coords t) (ms0_0 t) (hs0_0 t) (ms0_1 t) (hs0_1 t) (ms0_2 t) (hs0_2 t) (ms0_3 t) (hs0_3 t)
    (iblk m c 0 t) (iblk m c 1 t) (iblk m c 2 t) (hcond0_0 t) (hcond0_1 t)]
  funext j
  show tile (iblk m c 0 t) (iblk m c 1 t) (iblk m c 2 t) j = result m c (((cfg0.win 3).blk t).view.emb j)
  obtain ⟨p, q, rfl⟩ : ∃ (p q : Fin 256), j = ix2 p q := ⟨j 0, j 1, eq_ix2 j⟩
  refine (tile_apply_ideal (iblk m c 0 t) (iblk m c 1 t) (iblk m c 2 t) p q).trans ?_
  rw [emb_out t p q]
  exact entry_congr (m := 256) (m' := 8192) (k := 1024) (n := 256) (n' := 1024) (iblk m c 0 t) (X m c) (iblk m c 1 t) (W m c)
    (iblk m c 2 t) (B m c) p _ q _ (fun k => rows_block m c t p k) (fun k => cols_block m c t k q) (bias_block m c t q)

/-- An index of the result is in point `t`'s tile iff each coordinate is in the tile's range on its axis. -/
theorem mem_blk (t : Fin cfg0.N) (i : S8192x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v0).slice (win0_3.rect t)).set ↔ _
  rw [View.set_slice_whole, Rect.mem_set_unit]
  exact Iff.rfl

/-- The 128 tiles tile the result: entry `(r, s)` is in the tile of point `4 (r / 256) + s / 256`. -/
theorem cover (i : S8192x1024.Idx) :
    ∃ t : Fin cfg0.N, (cfg0.win 3).flush t = true ∧ i ∈ ((cfg0.win 3).blk t).view.set := by
  have hN : cfg0.N = 128 := N_0
  have h0 : (i 0).val < 8192 := (i 0).isLt
  have h1 : (i 1).val < 1024 := (i 1).isLt
  have ht : 4 * ((i 0).val / 256) + (i 1).val / 256 < cfg0.N := by omega
  obtain ⟨-, -, -, -, -, -, e0, e1⟩ := idx_facts ⟨4 * ((i 0).val / 256) + (i 1).val / 256, ht⟩
  refine ⟨⟨4 * ((i 0).val / 256) + (i 1).val / 256, ht⟩, flush0_3 _, ?_⟩
  rw [mem_blk]
  intro a
  match a with
  | ⟨0, _⟩ =>
    show win0_3.index ⟨4 * ((i 0).val / 256) + (i 1).val / 256, ht⟩ (0 : Fin 2) * 256 ≤ (i 0).val
      ∧ (i 0).val < win0_3.index ⟨4 * ((i 0).val / 256) + (i 1).val / 256, ht⟩ (0 : Fin 2) * 256 + 256
    rw [e0]; dsimp only; omega
  | ⟨1, _⟩ =>
    show win0_3.index ⟨4 * ((i 0).val / 256) + (i 1).val / 256, ht⟩ (1 : Fin 2) * 256 ≤ (i 1).val
      ∧ (i 1).val < win0_3.index ⟨4 * ((i 0).val / 256) + (i 1).val / 256, ht⟩ (1 : Fin 2) * 256 + 256
    rw [e1]; dsimp only; omega

/-- So the result array ends holding the layer of the argument arrays. -/
theorem final (c : Dev nD) : (dats m 0 c).arrAt 3 cfg0.N = result m c :=
  (dats m 0 c).arrAt_eq_of_cover 3 (result m c) (fun t _ => flushed_eq m c t) cover

/-- The reference's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.Whole

end
-- ==== Proof.lean ====
/-
  The kernel and its reference compute the same dense layer: `logistic (x · w + b)` for `x : [8192, 1024]`,
  `w : [1024, 1024]` and a bias row `b : [1, 1024]`.

  The kernel walks four blocks of 2048 rows.  At the first block it narrows the weights to the 16-bit format into a
  buffer it keeps, and at every block it multiplies groups of 256 rows, narrowed too, by the kept weights, adds the bias
  and applies the logistic function.  The reference walks 32 × 4 tiles of 256 × 256 entries, each from 256 rows of `x` and
  256 columns of `w` over the whole shared axis, accumulating into a tile it first sets to zero, then adds the bias and
  applies the logistic function.

  Over the extended reals a change of float format is the identity and every product is an exact sum, so both programs
  leave, at entry `(p, q)`, `logistic (∑ c, x (p, c) · w (c, q) + b (0, q))` (Spec.lean): an entry needs one row of `x` and
  one column of `w`, whatever the tiling, and the reference's extra zero is absorbed by `0 + s = s`, which holds for every
  extended real.  No finiteness of the inputs is used.

  The kernel's side is KernelTiles.lean (one grid point) and KernelWhole.lean (the kept weights across the points, the
  four blocks); the reference's side ReferenceTile.lean and ReferenceWhole.lean.  The three frames are the generated
  ones; the ideal pass rewrote nothing, so `preserves` is `True`.
-/
import proofs.«147655_g2000609348534853_pallasbulk_567_18_alg».proof.Defs
import proofs.«147655_g2000609348534853_pallasbulk_567_18_alg».proof.Proof.Gen.Kernel
import proofs.«147655_g2000609348534853_pallasbulk_567_18_alg».proof.Proof.Gen.Kernel.Frame
import proofs.«147655_g2000609348534853_pallasbulk_567_18_alg».proof.Proof.Gen.KernelIdeal
import proofs.«147655_g2000609348534853_pallasbulk_567_18_alg».proof.Proof.Gen.KernelIdeal.Frame
import proofs.«147655_g2000609348534853_pallasbulk_567_18_alg».proof.Proof.Gen.KernelIdeal.Value
import proofs.«147655_g2000609348534853_pallasbulk_567_18_alg».proof.Proof.Gen.ReferenceIdeal
import proofs.«147655_g2000609348534853_pallasbulk_567_18_alg».proof.Proof.Gen.ReferenceIdeal.Frame
import proofs.«147655_g2000609348534853_pallasbulk_567_18_alg».proof.Proof.Gen.ReferenceIdeal.Value
import proofs.«147655_g2000609348534853_pallasbulk_567_18_alg».proof.Proof.Gen.Pre_finite_inputs
import proofs.«147655_g2000609348534853_pallasbulk_567_18_alg».proof.Proof.KernelWhole
import proofs.«147655_g2000609348534853_pallasbulk_567_18_alg».proof.Proof.ReferenceWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation. -/
theorem preserves : Cert.preserves_Kernel_KernelIdeal := trivial

/-- Both result arrays end at the layer of the argument arrays, and the argument arrays agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  show Cert.ReferenceIdeal.Whole.result m' c = Cert.KernelIdeal.Whole.result m c
  have ex : Cert.ReferenceIdeal.Whole.X m' c = Cert.KernelIdeal.Whole.X m c := (hagree c).1
  have ew : Cert.ReferenceIdeal.Whole.W m' c = Cert.KernelIdeal.Whole.W m c := (hagree c).2.1
  have eb : Cert.ReferenceIdeal.Whole.B m' c = Cert.KernelIdeal.Whole.B m c := (hagree c).2.2
  unfold Cert.ReferenceIdeal.Whole.result Cert.KernelIdeal.Whole.result
  rw [ex, ew, eb]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
